-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S1 : Shape := ⟨1, ![1]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1 : S_.BroadcastsInDim S1 (![] : Fin 0 → Fin S1.rank)
  reducesTo_S1_S_d0 : S1.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S1 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S1 : Shape := ⟨1, ![1]⟩
abbrev S16x4096 : Shape := ⟨2, ![16, 4096]⟩
abbrev S4096x16 : Shape := ⟨2, ![4096, 16]⟩
abbrev S_ : Shape := ⟨0, ![]⟩
abbrev S1x1 : Shape := ⟨2, ![1, 1]⟩
abbrev S8192x4096 : Shape := ⟨2, ![8192, 4096]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 19
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S1, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1x1, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .bf16⟩
  | .hbm, ⟨15, _⟩ => ⟨S8192x4096, .f32⟩
  | .hbm, ⟨16, _⟩ => ⟨S8192x4096, .bf16⟩
  | .hbm, ⟨17, _⟩ => ⟨S8192x4096, .f32⟩
  | .hbm, ⟨18, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096x4096 : S_.BroadcastsInDim S4096x4096 (![] : Fin 0 → Fin S4096x4096.rank)
  bcast_S1_S1x1_1 : S1.BroadcastsInDim S1x1 (![1] : Fin 1 → Fin S1x1.rank)
  bcast_S1x1_S4096x4096_0_1 : S1x1.BroadcastsInDim S4096x4096 (![0, 1] : Fin 2 → Fin S4096x4096.rank)
  bitsLt_bf16_f32 : FTy.bits .bf16 < FTy.bits .f32
  shapeCasts_S4x2048x4096_S8192x4096 : S4x2048x4096.ShapeCasts S8192x4096
  shapeCasts_S8192x4096_S4x2048x4096 : S8192x4096.ShapeCasts S4x2048x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S4096x16_S16x4096_S4096x4096_1_0_0_1_n_n_wf : DotDims.WF S4096x16 S16x4096 S4096x4096 [1] [0] [0] [1] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_call0_v10) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v8) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v11) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S1 : Shape := ⟨1, ![1]⟩
abbrev S16x4096 : Shape := ⟨2, ![16, 4096]⟩
abbrev S4096x16 : Shape := ⟨2, ![4096, 16]⟩
abbrev S1x1 : Shape := ⟨2, ![1, 1]⟩
abbrev S4x2048x16 : Shape := ⟨3, ![4, 2048, 16]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S1, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S1x1, .f32⟩
  | .hbm, ⟨7, _⟩ => ⟨S4096x4096, .f32⟩
  | .hbm, ⟨8, _⟩ => ⟨S4096x4096, .f32⟩
  | .hbm, ⟨9, _⟩ => ⟨S4x2048x4096, .f32⟩
  | .hbm, ⟨10, _⟩ => ⟨S4x2048x16, .f32⟩
  | .hbm, ⟨11, _⟩ => ⟨S4x2048x4096, .f32⟩
  | .hbm, ⟨12, _⟩ => ⟨S_, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S4096x4096_0_1 : S1x1.BroadcastsInDim S4096x4096 (![0, 1] : Fin 2 → Fin S4096x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Pieces.lean ====
/-
  What the body leaves behind at a grid point, in each of its three cases, as the value of one expression.

  The body keeps a 2048 × 1024 accumulator in scratch memory across the eight points of a tile. At the first point of
  a tile it overwrites the accumulator with zeros, reads it back and stores `zeros + product`; at a later point it
  reads what the point before left and stores `previous + product`; at the last point it also reads the freshly
  stored accumulator back and copies it whole into the output block. Every load and store here spans the whole buffer,
  so a load after a store reads exactly what was stored, and the buffer ends holding the last store.
-/
import proofs.«109274_j48576080118365_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of a whole-buffer access are all zero. -/
theorem hz : (![0, 0] : Fin 2 → Nat) = fun _ => 0 := funext fun a => by fin_cases a <;> rfl

/-- First point of a tile: the accumulator ends at `zeros + product`. -/
theorem scratch_first (c : Dev nD) (i : grid0.Coords) (a3 : Memref sig .tc .vmem S2048x512 .bf16) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : cond0_0 i) (hc1 : ¬cond0_1 i)
    (x : Vec F S2048x512 .bf16) (w : Vec F S1024x512 .bf16) :
    sout0_A_0 c i a3 h3 a4 h4 a5 h5 a6 h6 hc0 hc1 x w = k0_pay2 (k0_pay1 (F := F)) x w := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S2048x1024) hz, View.readCov_unit_zero (S := S2048x1024) _ hz]
  simp only [View.readAt_eq_ld, h6.read_unread, h3.read_unread, h4.read_unread, View.ld_unit_zero (S := S2048x1024) hz,
    View.ld_unit_zero (S := S2048x512) hz, View.ld_unit_zero (S := S1024x512) hz]

/-- A middle point of a tile: the accumulator ends at `previous + product`. -/
theorem scratch_middle (c : Dev nD) (i : grid0.Coords) (a3 : Memref sig .tc .vmem S2048x512 .bf16) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : ¬cond0_1 i)
    (x : Vec F S2048x512 .bf16) (w : Vec F S1024x512 .bf16) (acc : Vec F S2048x1024 .f32) :
    sout0_B_0 c i a3 h3 a4 h4 a5 h5 a6 h6 hc0 hc1 x w acc = k0_pay2 acc x w := by
  unfold sout0_B_0
  rw [View.read_writes_eq_canon _ _ _ (scover0_B_0 c i a3 h3 a4 h4 a5 h5 a6 h6 hc0 hc1 x w acc)]
  unfold kernelRun0_B
  dsimp only
  rw [View.canon_unit_zero hz]
  simp only [View.readAt_eq_ld, h6.read_unread, h3.read_unread, h4.read_unread, View.ld_unit_zero (S := S2048x1024) hz,
    View.ld_unit_zero (S := S2048x512) hz, View.ld_unit_zero (S := S1024x512) hz]

/-- Last point of a tile: the accumulator ends at `previous + product`, -/
theorem scratch_last (c : Dev nD) (i : grid0.Coords) (a3 : Memref sig .tc .vmem S2048x512 .bf16) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x : Vec F S2048x512 .bf16) (w : Vec F S1024x512 .bf16) (acc : Vec F S2048x1024 .f32) :
    sout0_C_0 c i a3 h3 a4 h4 a5 h5 a6 h6 hc0 hc1 x w acc = k0_pay2 acc x w := by
  unfold sout0_C_0
  rw [View.read_writes_eq_canon _ _ _ (scover0_C_0 c i a3 h3 a4 h4 a5 h5 a6 h6 hc0 hc1 x w acc)]
  unfold kernelRun0_C
  dsimp only
  sl_unfold_words
  rw [View.canon_unit_zero hz]
  simp only [View.readAt_eq_ld, h6.read_unread, h3.read_unread, h4.read_unread, View.ld_unit_zero (S := S2048x1024) hz,
    View.ld_unit_zero (S := S2048x512) hz, View.ld_unit_zero (S := S1024x512) hz]

/-- and the output block is a copy of it. -/
theorem out_last (c : Dev nD) (i : grid0.Coords) (a3 : Memref sig .tc .vmem S2048x512 .bf16) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x : Vec F S2048x512 .bf16) (w : Vec F S1024x512 .bf16) (acc : Vec F S2048x1024 .f32) :
    out0_C_2 c i a3 h3 a4 h4 a5 h5 a6 h6 hc0 hc1 x w acc = k0_pay2 acc x w := by
  unfold out0_C_2
  rw [View.read_writes_eq_canon _ _ _ (cover0_C_2 c i a3 h3 a4 h4 a5 h5 a6 h6 hc0 hc1 x w acc)]
  unfold kernelRun0_C
  dsimp only
  sl_unfold_words
  rw [View.canon_unit_zero hz, View.readCov_unit_zero (S := S2048x1024) _ hz]
  simp only [View.readAt_eq_ld, h6.read_unread, h3.read_unread, h4.read_unread, View.ld_unit_zero (S := S2048x1024) hz,
    View.ld_unit_zero (S := S2048x512) hz, View.ld_unit_zero (S := S1024x512) hz]

end Cert.KernelIdeal.Pieces

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.BlockStep.lean ====
/-
  One step of the accumulation, entry by entry, over the extended reals.

  At a grid point the body adds to the accumulator block the product of a 2048 × 512 block of the activations with
  the transpose of a 1024 × 512 block of the effective weight (both contracted on their second axis), taken into a
  zero matrix. Entry `(q, o)` of the result is therefore the accumulator's entry plus the sum over the 512 shared
  positions `c` of `x (q, c) * w (o, c)`. The block stored at the first point of a tile is the zero word everywhere.
-/
import proofs.«109274_j48576080118365_2_alg».proof.Proof.Gen.KernelIdeal.Frame
import proofs.«109274_j48576080118365_2_alg».proof.Proof.LibRowsTimesRows
import Idealize.ShloMosaic.Lib.Pipeline.Value
import Idealize.ShloMosaic.Lib.ValueIdx
import Idealize.ShloMosaic.PureOps.Ideal.Laws

noncomputable section

namespace Cert.KernelIdeal.BlockStep

open Cert.KernelIdeal Cert.KernelIdeal.Gen Idealize.ShloMosaic Idealize.ShloMosaic.ValueIdx

/-- The block the first point of a tile stores is zero at every entry. -/
theorem reset_apply (j : S2048x1024.Idx) : k0_pay1 (F := Ideal) j = 0 := by
  unfold k0_pay1
  rw [shapeCast_self]
  exact Ideal.ofBits_zero_f32

/-- The block a point stores: the accumulator plus the product of the two input blocks along their second axes. -/
theorem step_apply (acc : Vec Ideal S2048x1024 .f32) (x : Vec Ideal S2048x512 .bf16) (w : Vec Ideal S1024x512 .bf16)
    (q : Fin 2048) (o : Fin 1024) :
    k0_pay2 (F := Ideal) acc x w (ix2 q o) = acc (ix2 q o) + ∑ c : Fin 512, x (ix2 q c) * w (ix2 o c) := by
  unfold k0_pay2
  simp only [shapeCast_self]
  exact congrArg (acc (ix2 q o) + ·)
    (Cert.RowsTimesRows.rowsMatmul_zero_apply dot_S2048x512_S1024x512_S2048x1024_1_1_0_0_n_n_wf none x w q o)

end Cert.KernelIdeal.BlockStep

end
-- ==== Proof.LibMergeForms.lean ====
/-
  Reshapes that merge or split the two leading axes, and a bias row copied down the rows, read at an index by
  coordinates.

  A reshape keeps the row-major position of every entry. Merging the leading axes `a, b` of an array into one axis
  of extent `a · b` sends the entry `(r, k, …)` to row `r · b + k`; splitting undoes it. A vector `[k]` laid out as
  one row `[1, k]` and copied to every row of `[R, k]` reads, at `(q, o)`, the vector at `o`.
-/
import Idealize.ShloMosaic.Lib.Pipeline.Value
import Idealize.ShloMosaic.Lib.ValueIdx
import Idealize.ShloMosaic.Lib.ValueLayout

noncomputable section

namespace Cert.PointConv

open Idealize.ShloMosaic Idealize.ShloMosaic.ValueIdx

variable {α : Type}

/-- `[a, b, c]` reshaped to `[m, c]` (`m = a · b`): row `r · b + k` at column `o` is the entry `(r, k, o)`. -/
theorem shapeCast_abc_mc_apply {a b c m : Nat} (x : (⟨3, ![a, b, c]⟩ : Shape).Idx → α)
    (h : (⟨3, ![a, b, c]⟩ : Shape).ShapeCasts ⟨2, ![m, c]⟩) (r : Fin a) (k : Fin b) (o : Fin c) (q : Fin m)
    (hq : q.val = r.val * b + k.val) : shapeCast ⟨2, ![m, c]⟩ x h (ix2 q o) = x (ix3 r k o) :=
  shapeCast_apply x h _ _ (by
    rw [Shape.rowMajor_val_three, Shape.rowMajor_val_two]
    show (r.val * b + k.val) * c + o.val = q.val * c + o.val
    rw [hq])

/-- `[m, c]` reshaped to `[a, b, c]` (`m = a · b`): the entry `(r, k, o)` is row `r · b + k` at column `o`. -/
theorem shapeCast_mc_abc_apply {a b c m : Nat} (x : (⟨2, ![m, c]⟩ : Shape).Idx → α)
    (h : (⟨2, ![m, c]⟩ : Shape).ShapeCasts ⟨3, ![a, b, c]⟩) (r : Fin a) (k : Fin b) (o : Fin c) (q : Fin m)
    (hq : q.val = r.val * b + k.val) : shapeCast ⟨3, ![a, b, c]⟩ x h (ix3 r k o) = x (ix2 q o) :=
  shapeCast_apply x h _ _ (by
    rw [Shape.rowMajor_val_three, Shape.rowMajor_val_two]
    show q.val * c + o.val = (r.val * b + k.val) * c + o.val
    rw [hq])

/-- `[a, b, c, d]` reshaped to `[m, c, d]` (`m = a · b`): the entry `(r · b + k, i, j)` is the entry `(r, k, i, j)`. -/
theorem shapeCast_abcd_mcd_apply {a b c d m : Nat} (x : (⟨4, ![a, b, c, d]⟩ : Shape).Idx → α)
    (h : (⟨4, ![a, b, c, d]⟩ : Shape).ShapeCasts ⟨3, ![m, c, d]⟩) (r : Fin a) (k : Fin b) (i : Fin c) (j : Fin d) (q : Fin m)
    (hq : q.val = r.val * b + k.val) : shapeCast ⟨3, ![m, c, d]⟩ x h (ix3 q i j) = x (ix4 r k i j) :=
  shapeCast_apply x h _ _ (by
    rw [Shape.rowMajor_val_four, Shape.rowMajor_val_three]
    show ((r.val * b + k.val) * c + i.val) * d + j.val = (q.val * c + i.val) * d + j.val
    rw [hq])

/-- A vector `[k]` laid out as the row `[1, k]` and copied to every row of `[R, k]`: at `(q, o)` it is the vector at `o`. -/
theorem rowBias_apply {R k : Nat} (b : (⟨1, ![k]⟩ : Shape).Idx → α) (h1 : (⟨1, ![k]⟩ : Shape).ShapeCasts ⟨2, ![1, k]⟩)
    (h2 : (⟨2, ![1, k]⟩ : Shape).Broadcasts ⟨2, ![R, k]⟩) (q : Fin R) (o : Fin k) :
    broadcastTo ⟨2, ![R, k]⟩ (shapeCast ⟨2, ![1, k]⟩ b h1) h2 (ix2 q o) = b (ix1 o) :=
  (broadcastTo_1b_ab_apply _ h2 q o).trans (shapeCast_a_1a_apply b h1 0 o)

end Cert.PointConv

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibPlainHostProduct.lean ====
/-
  A plain host matrix product read at an index, over the extended reals.

  The host's `dot_general` of an `R × n` matrix by an `n × k` matrix (the left operand contracted on its second axis,
  the right one on its first, no batch axis) is, at row `q` and column `o`, the sum over `c : Fin n` of
  `A (q, c) * B (c, o)`, whatever the schedule key: there is no accumulator, and the contraction index, a one-axis
  multi-index, is re-indexed by its one coordinate. It is the host counterpart of the kernel-side product into the
  zero matrix, over the same dimension numbers `plainDims`, so the two meet in one sum.
-/
import Idealize.ShloMosaic.PureOps.Ideal
import Idealize.ShloMosaic.PureOps.Ideal.Laws
import Idealize.ShloMosaic.Lib.ValueIdx
import proofs.«109274_j48576080118365_2_alg».proof.Proof.LibPlainMatmul

noncomputable section

namespace Cert.PointConv

open Idealize.ShloMosaic Idealize.ShloMosaic.ValueIdx

/-- A host product of an `R × n` by an `n × k` matrix, at `(q, o)`: the sum over the shared axis. -/
theorem plainDotGeneral_apply {R n k : Nat} {φ₁ φ₂ : FTy} (wf) (prec : Option ContractPrecision) (sched : HostSchedule)
    (A : FVec Ideal (⟨2, ![R, n]⟩ : Shape) φ₁) (B : FVec Ideal (⟨2, ![n, k]⟩ : Shape) φ₂) (q : Fin R) (o : Fin k) :
    FloatOps.dotGeneral (plainDims R n k wf) prec sched A B (ix2 q o) = ∑ c : Fin n, A (ix2 q c) * B (ix2 c o) := by
  rw [Ideal.dotGeneral_apply, ← Equiv.sum_comp (plainContr wf).symm]
  refine Finset.sum_congr rfl fun c _ => ?_
  rw [plainDims_lhsIdx, plainDims_rhsIdx]

end Cert.PointConv

end
-- ==== Proof.HostSide.lean ====
/-
  The two arrays the kernel region is launched on, as functions of the arguments, entry by entry.

  Before the region the host computes, from the arguments, the activations flattened to 8192 rows (row
  `b · 2048 + s` is row `s` of batch `b`; the change of float format is the identity on the extended reals), and the
  effective weight: entry `(o, i)` is the integer weight converted exactly, times the scale, plus `2` times the rank-16
  product `Σ_r B (o, r) * A (r, i)`.
-/
import proofs.«109274_j48576080118365_2_alg».proof.Proof.Gen.KernelIdeal.Frame
import proofs.«109274_j48576080118365_2_alg».proof.Proof.LibMergeForms
import proofs.«109274_j48576080118365_2_alg».proof.Proof.LibPlainHostProduct
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal
import Idealize.ShloMosaic.PureOps.Ideal.Laws

noncomputable section

open Idealize.ShloMosaic Idealize.ShloMosaic.TcCoe Idealize.SL.Sem

namespace Cert.KernelIdeal.HostSide

open Cert.KernelIdeal Cert.KernelIdeal.Gen Idealize.ShloMosaic.ValueIdx

/-- A one-entry vector copied to every entry of a matrix (through a 1 × 1 matrix) reads its one entry everywhere. -/
theorem scale_apply (sc : S1.Idx → EReal) (o i : Fin 4096) :
    broadcastInDim S4096x4096 ![0, 1] bcast_S1x1_S4096x4096_0_1 (broadcastInDim S1x1 ![1] bcast_S1_S1x1_1 sc) (ix2 o i)
      = sc (ix1 0) := by
  rw [broadcastInDim_apply _ bcast_S1x1_S4096x4096_0_1 _ (ix2 o i) (ix2 (0 : Fin 1) (0 : Fin 1)) (fun a => match a with
    | ⟨0, _⟩ => by show 0 = if (1 : Nat) = 1 then 0 else ((ix2 o i : S4096x4096.Idx) 0).val; rw [if_pos rfl]
    | ⟨1, _⟩ => by show 0 = if (1 : Nat) = 1 then 0 else ((ix2 o i : S4096x4096.Idx) 1).val; rw [if_pos rfl])]
  exact broadcastInDim_apply _ bcast_S1_S1x1_1 sc (ix2 (0 : Fin 1) (0 : Fin 1)) (ix1 0) (fun a => match a with
    | ⟨0, _⟩ => by show 0 = if (1 : Nat) = 1 then 0 else ((ix2 (0 : Fin 1) (0 : Fin 1) : S1x1.Idx) 1).val; rw [if_pos rfl])

/-- A constant copied to every entry of a matrix reads the constant everywhere. -/
theorem two_apply (o i : Fin 4096) :
    broadcastInDim S4096x4096 ![] bcast_S_S4096x4096 (constant (F := Ideal) S_ .f32 0x40000000#32) (ix2 o i)
      = Ideal.ofBits .f32 0x40000000#32 :=
  broadcastInDim_apply _ bcast_S_S4096x4096 _ (ix2 o i) ix0 (fun a => a.elim0)

variable (m : (ℓ : Loc nD τ sig) → Buf (Elt Ideal) ℓ)

/-- The five arguments, read at their literal shapes. -/
abbrev argX (c : Dev nD) : FVec Ideal S4x2048x4096 .f32 := m ((c : Thread nD τ).loc main_arg0)
abbrev argW (c : Dev nD) : IVec S4096x4096 32 := m ((c : Thread nD τ).loc main_arg1)
abbrev argS (c : Dev nD) : FVec Ideal S1 .f32 := m ((c : Thread nD τ).loc main_arg2)
abbrev argA (c : Dev nD) : FVec Ideal S16x4096 .f32 := m ((c : Thread nD τ).loc main_arg3)
abbrev argB (c : Dev nD) : FVec Ideal S4096x16 .f32 := m ((c : Thread nD τ).loc main_arg4)
/-- The two arrays the region is launched on. -/
def flatX (c : Dev nD) : FVec Ideal S8192x4096 .bf16 := V m c main_call0_v10
def effW (c : Dev nD) : FVec Ideal S4096x4096 .bf16 := V m c main_call0_v8

/-- The activations as the region finds them: the argument reshaped to rows. -/
theorem x_flat (c : Dev nD) : flatX m c
    = truncf (F := Ideal) .bf16 (shapeCast S8192x4096 (argX m c) shapeCasts_S4x2048x4096_S8192x4096) bitsLt_bf16_f32 := by
  show StableHlo.after hostOps0 (fun b => m (c, b)) (Proc.devRef .tc main_call0_v10) = _
  after_results
  rfl

/-- Row `b · 2048 + s` of the flattened activations is row `s` of batch `b`. -/
theorem x_flat_apply (c : Dev nD) (b : Fin 4) (s : Fin 2048) (i : Fin 4096) (r : Fin 8192) (hr : r.val = b.val * 2048 + s.val) :
    flatX m c (ix2 r i) = argX m c (ix3 b s i) := by
  rw [x_flat]
  exact Cert.PointConv.shapeCast_abc_mc_apply (argX m c) shapeCasts_S4x2048x4096_S8192x4096 b s i r hr

/-- The effective weight as the region finds it. -/
theorem w_eff (c : Dev nD) : effW m c
    = truncf (F := Ideal) .bf16 (addf
        (mulf (sitofp .f32 (argW m c))
          (broadcastInDim S4096x4096 ![0, 1] bcast_S1x1_S4096x4096_0_1
            (broadcastInDim S1x1 ![1] bcast_S1_S1x1_1 (argS m c))))
        (mulf (broadcastInDim S4096x4096 ![] bcast_S_S4096x4096 (constant (F := Ideal) S_ .f32 0x40000000#32))
          (Host.dotGeneral dot_S4096x16_S16x4096_S4096x4096_1_0_0_1_n_n none (argB m c) (argA m c)))) bitsLt_bf16_f32 := by
  show StableHlo.after hostOps0 (fun b => m (c, b)) (Proc.devRef .tc main_call0_v8) = _
  after_results
  rfl

/-- Entry `(o, i)` of the effective weight: the scaled integer weight plus twice the rank-16 product. -/
theorem w_eff_apply (c : Dev nD) (o i : Fin 4096) :
    effW m c (ix2 o i)
      = (((argW m c (ix2 o i)).toInt : ℝ) : EReal) * argS m c (ix1 0)
        + Ideal.ofBits .f32 0x40000000#32 * ∑ r : Fin 16, argB m c (ix2 o r) * argA m c (ix2 r i) := by
  rw [w_eff]
  show FloatOps.sitofp (F := Ideal) .f32 (argW m c (ix2 o i)) * _ + _ * _ = _
  rw [scale_apply, two_apply]
  exact congrArg (FloatOps.sitofp (F := Ideal) .f32 (argW m c (ix2 o i)) * argS m c (ix1 0) + Ideal.ofBits .f32 0x40000000#32 * ·)
    (Cert.PointConv.plainDotGeneral_apply dot_S4096x16_S16x4096_S4096x4096_1_0_0_1_n_n_wf none HostSchedule.single
      (argB m c) (argA m c) o i)

end Cert.KernelIdeal.HostSide

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.Accum.lean ====
/-
  The accumulator across the eight points of a tile is the partial sum of the contraction.

  The grid is 4 × 4 × 8: point `n` works on row tile `n / 32` (2048 rows of the flattened activations), column tile
  `n / 8 % 4` (1024 rows of the effective weight) and block `n % 8` of the contracted axis (512 positions). The
  activations' block at the point holds rows `2048 · (n / 32) + q` at positions `512 · (n % 8) + c`, the weight's block
  rows `1024 · (n / 8 % 4) + o` at the same positions. So the product the point adds at entry `(q, o)` is the sum of
  the products `x (row, i) * w (col, i)` over block `n % 8` of the axis, and the accumulator after the point — zero
  plus the blocks `0 … n % 8` — is the partial sum over those blocks. After the last point of a tile it is the sum
  over the whole axis, and that is what the point copies into the output block. Only associativity and commutativity
  of the addition are used: nothing here needs an entry to be finite.
-/
import proofs.«109274_j48576080118365_2_alg».proof.Proof.Gen.KernelIdeal.Frame
import proofs.«109274_j48576080118365_2_alg».proof.Proof.Pieces
import proofs.«109274_j48576080118365_2_alg».proof.Proof.BlockStep
import proofs.«109274_j48576080118365_2_alg».proof.Proof.HostSide
import proofs.«109274_j48576080118365_2_alg».proof.Proof.LibBlockedSum
import Idealize.ShloMosaic.Lib.Pipeline.Value
import Idealize.ShloMosaic.Lib.ValueIdx

noncomputable section

open Idealize.ShloMosaic Idealize.ShloMosaic.TcCoe Idealize.SL.Sem

namespace Cert.KernelIdeal.Accum

open Cert.KernelIdeal Cert.KernelIdeal.Gen Idealize.ShloMosaic.ValueIdx BlockedSum Cert.KernelIdeal.HostSide

variable (m : (ℓ : Loc nD τ sig) → Buf (Elt Ideal) ℓ)

theorem axis_pos : 0 < 4096 := by decide
theorem axis_blocks : 8 * 512 = 4096 := by decide

/-- Where each window's block sits at a point: decided over the 128 points of the grid. -/
theorem block_index : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 32 ∧ win0_2.index t (1 : Fin 2) = t.val / 8 % 4 :=
  (by decide +kernel : ∀ t : Fin grid0.N, _)

/-- The row of the flattened activations that row `q` of point `n`'s block is. -/
def rowOf (n : ℕ) (q : Fin 2048) : Fin 8192 := ⟨(2048 * (n / 32) + q.val) % 8192, Nat.mod_lt _ (by decide)⟩
/-- The row of the effective weight that row `o` of point `n`'s block is. -/
def colOf (n : ℕ) (o : Fin 1024) : Fin 4096 := ⟨(1024 * (n / 8 % 4) + o.val) % 4096, Nat.mod_lt _ (by decide)⟩

theorem rowOf_val {n : ℕ} (hn : n < 128) (q : Fin 2048) : (rowOf n q).val = 2048 * (n / 32) + q.val := by
  show (2048 * (n / 32) + q.val) % 8192 = _
  have := q.isLt
  omega

theorem colOf_val (n : ℕ) (o : Fin 1024) : (colOf n o).val = 1024 * (n / 8 % 4) + o.val := by
  show (1024 * (n / 8 % 4) + o.val) % 4096 = _
  have := o.isLt
  omega

/-- The two input blocks at a point, at their literal shapes. -/
abbrev xblk (c : Dev nD) (t : Fin cfg0.N) : Vec Ideal S2048x512 .bf16 := iblk m c 0 t
abbrev wblk (c : Dev nD) (t : Fin cfg0.N) : Vec Ideal S1024x512 .bf16 := iblk m c 1 t

/-- The activations' block at a point, read at an entry. -/
theorem x_block (c : Dev nD) (t : Fin cfg0.N) (j : S2048x512.Idx) (r : Fin 8192) (k : Fin 4096)
    (hr : r.val = 2048 * (t.val / 32) + (j 0).val) (hk : k.val = 512 * (t.val % 8) + (j 1).val) :
    xblk m c t j = flatX m c (ix2 r k) := by
  obtain ⟨e0, e1, -⟩ := block_index t
  unfold xblk iblk
  rw [View.read_apply]
  show flatX m c (((cfg0.win 0).blk t).view.emb j) = flatX m c (ix2 r k)
  refine congrArg (flatX m c) (funext fun a => Fin.ext ?_)
  match a with
  | ⟨0, _⟩ => show win0_0.index t (0 : Fin 2) * 2048 + 1 * (j 0).val = r.val; omega
  | ⟨1, _⟩ => show win0_0.index t (1 : Fin 2) * 512 + 1 * (j 1).val = k.val; omega

/-- The effective weight's block at a point, read at an entry. -/
theorem w_block (c : Dev nD) (t : Fin cfg0.N) (j : S1024x512.Idx) (r : Fin 4096) (k : Fin 4096)
    (hr : r.val = 1024 * (t.val / 8 % 4) + (j 0).val) (hk : k.val = 512 * (t.val % 8) + (j 1).val) :
    wblk m c t j = effW m c (ix2 r k) := by
  obtain ⟨-, -, e2, e3, -⟩ := block_index t
  unfold wblk iblk
  rw [View.read_apply]
  show effW m c (((cfg0.win 1).blk t).view.emb j) = effW m c (ix2 r k)
  refine congrArg (effW m c) (funext fun a => Fin.ext ?_)
  match a with
  | ⟨0, _⟩ => show win0_1.index t (0 : Fin 2) * 1024 + 1 * (j 0).val = r.val; omega
  | ⟨1, _⟩ => show win0_1.index t (1 : Fin 2) * 512 + 1 * (j 1).val = k.val; omega

/-- The products along the contracted axis for row `r` of the activations and row `k` of the effective weight. -/
def prods (c : Dev nD) (r : Fin 8192) (k : Fin 4096) (i : Fin 4096) : EReal := flatX m c (ix2 r i) * effW m c (ix2 k i)

/-- The product a point adds at an entry is the sum of the products over its block of the axis. -/
theorem block_sum (c : Dev nD) (t : Fin cfg0.N) (q : Fin 2048) (o : Fin 1024) :
    ∑ cc : Fin 512, xblk m c t (ix2 q cc) * wblk m c t (ix2 o cc)
      = blockSum axis_pos 512 (prods m c (rowOf t.val q) (colOf t.val o)) (t.val % 8) := by
  have hN : t.val < 128 := lt_of_lt_of_eq t.isLt (show cfg0.N = 128 from N_0)
  unfold blockSum prods
  refine Finset.sum_congr rfl fun cc _ => ?_
  have hk : (blkIdx axis_pos 512 (t.val % 8) cc).val = 512 * (t.val % 8) + cc.val :=
    blkIdx_val axis_pos axis_blocks (Nat.mod_lt _ (by decide)) cc
  exact congrArg₂ (· * ·)
    (x_block m c t (ix2 q cc) (rowOf t.val q) (blkIdx axis_pos 512 (t.val % 8) cc) (rowOf_val hN q) hk)
    (w_block m c t (ix2 o cc) (colOf t.val o) (blkIdx axis_pos 512 (t.val % 8) cc) (colOf_val t.val o) hk)

/-- First point of a tile, as one expression of the point's blocks. -/
theorem acc_first (c : Dev nD) (t : Fin cfg0.N) (h0 : t.val % 8 = 0) :
    (outsAt0 m c t.val t.isLt).2 = k0_pay2 (F := Ideal) (k0_pay1 (F := Ideal)) (xblk m c t) (wblk m c t) := by
  have h1 : ¬t.val % 8 = 7 := by omega
  refine (congrArg Prod.snd (outsAt0_A m c t h0 h1)).trans ?_
  dsimp only
  exact Pieces.scratch_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- A later point of a tile, over what the point before (`p`) left. -/
theorem acc_later (c : Dev nD) (t : Fin cfg0.N) (h0 : ¬t.val % 8 = 0) (p : ℕ) (hp : p + 1 = t.val) :
    (outsAt0 m c t.val t.isLt).2
      = k0_pay2 (F := Ideal) (outsAt0 m c p (by have := t.isLt; omega)).2 (xblk m c t) (wblk m c t) := by
  obtain rfl : p = t.val - 1 := by omega
  by_cases h1 : t.val % 8 = 7
  · refine (congrArg Prod.snd (outsAt0_C m c t h0 h1)).trans ?_
    dsimp only
    exact Pieces.scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2
  · refine (congrArg Prod.snd (outsAt0_B m c t h0 h1)).trans ?_
    dsimp only
    exact Pieces.scratch_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- At the last point of a tile the output block is the accumulator. -/
theorem out_eq_acc (c : Dev nD) (t : Fin cfg0.N) (h7 : t.val % 8 = 7) :
    (outsAt0 m c t.val t.isLt).1 = (outsAt0 m c t.val t.isLt).2 := by
  have h0 : ¬t.val % 8 = 0 := by omega
  refine (congrArg Prod.fst (outsAt0_C m c t h0 h7)).trans ?_
  refine Eq.trans ?_ (congrArg Prod.snd (outsAt0_C m c t h0 h7)).symm
  dsimp only
  exact (Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2).trans
    (Pieces.scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2).symm

/-- THE INVARIANT: after point `n` the accumulator's entry `(q, o)` is the sum of the products over the blocks
    `0 … n % 8` of the contracted axis, for the rows the point's tile names. By induction on the point. -/
theorem acc_apply (c : Dev nD) : ∀ (n : ℕ) (h : n < cfg0.N) (q : Fin 2048) (o : Fin 1024),
    (outsAt0 m c n h).2 (ix2 q o) = partialSum axis_pos 512 (prods m c (rowOf n q) (colOf n o)) (n % 8) := by
  intro n
  induction n with
  | zero =>
    intro h q o
    refine (congrFun (acc_first m c ⟨0, h⟩ rfl) (ix2 q o)).trans ?_
    refine (BlockStep.step_apply _ _ _ q o).trans ?_
    rw [BlockStep.reset_apply, zero_add, partialSum_zero]
    exact block_sum m c ⟨0, h⟩ q o
  | succ n ih =>
    intro h q o
    by_cases h0 : (n + 1) % 8 = 0
    · refine (congrFun (acc_first m c ⟨n + 1, h⟩ h0) (ix2 q o)).trans ?_
      refine (BlockStep.step_apply _ _ _ q o).trans ?_
      rw [BlockStep.reset_apply, zero_add, h0, partialSum_zero]
      exact (block_sum m c ⟨n + 1, h⟩ q o).trans (by rw [show (⟨n + 1, h⟩ : Fin cfg0.N).val % 8 = 0 from h0])
    · refine (congrFun (acc_later m c ⟨n + 1, h⟩ h0 n rfl) (ix2 q o)).trans ?_
      refine (BlockStep.step_apply _ _ _ q o).trans ?_
      have e1 : rowOf n q = rowOf (n + 1) q := Fin.ext (by show _ % 8192 = _ % 8192; omega)
      have e2 : colOf n o = colOf (n + 1) o := Fin.ext (by show _ % 4096 = _ % 4096; omega)
      have e3 : (n + 1) % 8 = n % 8 + 1 := by omega
      rw [e3, partialSum_succ, ← e3, ← e1, ← e2]
      exact congrArg₂ (· + ·) (ih (Nat.lt_of_succ_lt h) q o) ((block_sum m c ⟨n + 1, h⟩ q o).trans (by rw [← e1, ← e2]))

/-- What a tile's last point writes back at entry `(q, o)`: the sum of the products over the whole axis. -/
theorem out_apply (c : Dev nD) (t : Fin cfg0.N) (h7 : t.val % 8 = 7) (q : Fin 2048) (o : Fin 1024) :
    (outsAt0 m c t.val t.isLt).1 (ix2 q o) = ∑ i : Fin 4096, prods m c (rowOf t.val q) (colOf t.val o) i := by
  rw [out_eq_acc m c t h7, acc_apply m c t.val t.isLt q o, h7]
  exact partialSum_last axis_pos axis_blocks _ rfl

end Cert.KernelIdeal.Accum

end
-- ==== Proof.Result.lean ====
/-
  The kernel's result array, entry by entry.

  Each of the sixteen tiles of the 8192 × 4096 result is written back once, after the last of the tile's eight points,
  and holds there the sums over the whole contracted axis: entry `(r, k)` of the result is the sum over `i` of the
  flattened activations at `(r, i)` times the effective weight at `(k, i)`. The tiles cover the result, so this
  describes all of it; the host then splits the row axis back into batch and sequence.
-/
import proofs.«109274_j48576080118365_2_alg».proof.Proof.Accum
import proofs.«109274_j48576080118365_2_alg».proof.Proof.LibMergeForms
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.KernelIdeal.HostSide Cert.KernelIdeal.Accum

variable (m : (ℓ : Loc nD τ sig) → Buf (Elt Ideal) ℓ)

/-- The product of the flattened activations with the transposed effective weight. -/
def flatOut (c : Dev nD) : FVec Ideal S8192x4096 .f32 := fun j => ∑ i : Fin 4096, prods m c (j 0) (j 1) i

/-- The output block a tile's last point leaves, read at an index of the block. -/
theorem out_block (c : Dev nD) (t : Fin cfg0.N) (h7 : t.val % 8 = 7) (j : S2048x1024.Idx) :
    (outsAt0 m c t.val t.isLt).1 j = ∑ i : Fin 4096, prods m c (rowOf t.val (j 0)) (colOf t.val (j 1)) i :=
  (congrArg (outsAt0 m c t.val t.isLt).1 (eq_ix2 j)).trans (out_apply m c t h7 (j 0) (j 1))

/-- The same at an index of the result array whose coordinates are the block entry's, offset by the tile. -/
theorem block_entry (c : Dev nD) (t : Fin cfg0.N) (h7 : t.val % 8 = 7) (j : S2048x1024.Idx) (i : S8192x4096.Idx)
    (h0 : (i 0).val = 2048 * (t.val / 32) + (j 0).val) (h1 : (i 1).val = 1024 * (t.val / 8 % 4) + (j 1).val) :
    (outsAt0 m c t.val t.isLt).1 j = flatOut m c i := by
  have hN : t.val < 128 := lt_of_lt_of_eq t.isLt (show cfg0.N = 128 from N_0)
  refine (out_block m c t h7 j).trans ?_
  have r0 : rowOf t.val (j 0) = i 0 := Fin.ext ((rowOf_val hN (j 0)).trans h0.symm)
  have r1 : colOf t.val (j 1) = i 1 := Fin.ext ((colOf_val t.val (j 1)).trans h1.symm)
  unfold flatOut
  rw [r0, r1]

/-- What a tile's last point writes back is its block of the product. -/
theorem flushed_eq (c : Dev nD) (t : Fin cfg0.N) (hf : (cfg0.win 2).flush t = true) :
    (dats m 0 c).flushed 2 t = ((cfg0.win 2).blk t).view.read (Elt Ideal) (flatOut m c) := by
  have h7 : t.val % 8 = 7 := (flush0_2 t).mp hf
  obtain ⟨-, -, -, -, e4, e5⟩ := block_index t
  show (cfg0.win 2).cut (grid0.coords t) ((dats m 0 c).after 2 t) = _
  rw [after0_2]
  funext j
  exact block_entry m c t h7 j (((cfg0.win 2).blk t).view.emb j)
    (by show win0_2.index t (0 : Fin 2) * 2048 + 1 * (j 0).val = 2048 * (t.val / 32) + (j 0).val; omega)
    (by show win0_2.index t (1 : Fin 2) * 1024 + 1 * (j 1).val = 1024 * (t.val / 8 % 4) + (j 1).val; omega)

/-- An index of the result is in a point's block iff each coordinate is in the block's range. -/
theorem mem_blk (t : Fin cfg0.N) (i : S8192x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_call0_v11).slice (win0_2.rect t)).set ↔ _
  rw [View.set_slice_whole, Rect.mem_set_unit]
  exact Iff.rfl

/-- Every index of the result is in the block of its tile's last point. -/
theorem cover (i : S8192x4096.Idx) :
    ∃ t : Fin cfg0.N, (cfg0.win 2).flush t = true ∧ i ∈ ((cfg0.win 2).blk t).view.set := by
  have hN : cfg0.N = 128 := N_0
  have hi0 : (i 0).val < 8192 := (i 0).isLt
  have hi1 : (i 1).val < 4096 := (i 1).isLt
  have hlt : 32 * ((i 0).val / 2048) + 8 * ((i 1).val / 1024) + 7 < cfg0.N := by omega
  obtain ⟨-, -, -, -, e4, e5⟩ := block_index ⟨_, hlt⟩
  refine ⟨⟨_, hlt⟩, (flush0_2 _).mpr (by show (32 * ((i 0).val / 2048) + 8 * ((i 1).val / 1024) + 7) % 8 = 7; omega), ?_⟩
  rw [mem_blk]
  intro a
  match a with
  | ⟨0, _⟩ =>
    show win0_2.index ⟨_, hlt⟩ (0 : Fin 2) * 2048 ≤ (i 0).val ∧ (i 0).val < win0_2.index ⟨_, hlt⟩ (0 : Fin 2) * 2048 + 2048
    rw [e4]; dsimp only; omega
  | ⟨1, _⟩ =>
    show win0_2.index ⟨_, hlt⟩ (1 : Fin 2) * 1024 ≤ (i 1).val ∧ (i 1).val < win0_2.index ⟨_, hlt⟩ (1 : Fin 2) * 1024 + 1024
    rw [e5]; dsimp only; omega

/-- The result array after the region is the product. -/
theorem final (c : Dev nD) : (dats m 0 c).arrAt 2 cfg0.N = flatOut m c :=
  (dats m 0 c).arrAt_eq_of_cover 2 (flatOut m c) (flushed_eq m c) cover

/-- The program's result: the product with its row axis split into batch and sequence. -/
theorem result_eq (c : Dev nD) :
    Pipeline.afterTail₀ cfgs (dats m) 0 (V0 m) [hostOps1] c main_v0
      = shapeCast S4x2048x4096 (flatOut m c) shapeCasts_S8192x4096_S4x2048x4096 := by
  unfold Pipeline.afterTail₀
  show StableHlo.after hostOps1 _ (Proc.devRef .tc main_v0) = _
  after_results
  have hw : Pipeline.withArrays spec0 c (V0 m c) (fun w => (dats m 0 c).arrAt w cfg0.N)
      (Proc.devRef .tc (Pipeline.arrRef spec0 2)) = flatOut m c :=
    (Pipeline.withArrays_arr spec0 launch0.win.arr_inj c _ _ 2).trans (final m c)
  exact congrArg (fun A : FVec Ideal S8192x4096 .f32 => shapeCast S4x2048x4096 A shapeCasts_S8192x4096_S4x2048x4096) hw

end Cert.KernelIdeal.Result

end
-- ==== Proof.RefRead.lean ====
/-
  The reference, entry by entry, over the extended reals.

  At batch `b`, row `s` and output feature `o` the reference's result is the activation row contracted with the
  scaled integer weight's row `o`, plus the low-rank path: the activation row pushed through `A` (16 values), those
  contracted with row `o` of `B`, and the result doubled:

      Σ_i x (b, s, i) * (w (o, i) * scale)  +  (Σ_r (Σ_i x (b, s, i) * A (r, i)) * B (o, r)) * 2.
-/
import proofs.«109274_j48576080118365_2_alg».proof.Proof.Gen.ReferenceIdeal.Read
import Idealize.ShloMosaic.Lib.ValueIdx
import Idealize.ShloMosaic.PureOps.Ideal.Laws

noncomputable section

namespace Cert.RefRead

open Cert.ReferenceIdeal Cert.ReferenceIdeal.Read Idealize.ShloMosaic Idealize.ShloMosaic.ValueIdx

theorem lhs_base (b : Fin 4) (s : Fin 2048) (o k : Fin 4096) : lidx_main_v4 (ix3 b s o) k = ix3 b s k :=
  funext fun a => Fin.ext (by match a with | ⟨0, _⟩ => rfl | ⟨1, _⟩ => rfl | ⟨2, _⟩ => rfl)
theorem rhs_base (b : Fin 4) (s : Fin 2048) (o k : Fin 4096) : ridx_main_v4 (ix3 b s o) k = ix2 o k :=
  funext fun a => Fin.ext (by match a with | ⟨0, _⟩ => rfl | ⟨1, _⟩ => rfl)
theorem lhs_down (b : Fin 4) (s : Fin 2048) (r : Fin 16) (k : Fin 4096) : lidx_main_v5 (ix3 b s r) k = ix3 b s k :=
  funext fun a => Fin.ext (by match a with | ⟨0, _⟩ => rfl | ⟨1, _⟩ => rfl | ⟨2, _⟩ => rfl)
theorem rhs_down (b : Fin 4) (s : Fin 2048) (r : Fin 16) (k : Fin 4096) : ridx_main_v5 (ix3 b s r) k = ix2 r k :=
  funext fun a => Fin.ext (by match a with | ⟨0, _⟩ => rfl | ⟨1, _⟩ => rfl)
theorem lhs_up (b : Fin 4) (s : Fin 2048) (o : Fin 4096) (r : Fin 16) : lidx_main_v6 (ix3 b s o) r = ix3 b s r :=
  funext fun a => Fin.ext (by match a with | ⟨0, _⟩ => rfl | ⟨1, _⟩ => rfl | ⟨2, _⟩ => rfl)
theorem rhs_up (b : Fin 4) (s : Fin 2048) (o : Fin 4096) (r : Fin 16) : ridx_main_v6 (ix3 b s o) r = ix2 o r :=
  funext fun a => Fin.ext (by match a with | ⟨0, _⟩ => rfl | ⟨1, _⟩ => rfl)
theorem scale_idx (j : S4096x4096.Idx) : idx_main_v1 (idx_main_v2 j) = ix1 (0 : Fin 1) :=
  funext fun a => Fin.ext (by match a with | ⟨0, _⟩ => rfl)

/-- The reference's result at `(b, s, o)`. -/
theorem ref_apply (x : FVec Ideal S4x2048x4096 .f32) (w : IVec S4096x4096 32) (sc : FVec Ideal S1 .f32)
    (A : FVec Ideal S16x4096 .f32) (B : FVec Ideal S4096x16 .f32) (b : Fin 4) (s : Fin 2048) (o : Fin 4096) :
    val_main_v9 (F := Ideal) x w sc A B (ix3 b s o)
      = ∑ i : Fin 4096, x (ix3 b s i) * ((((w (ix2 o i)).toInt : ℝ) : EReal) * sc (ix1 0))
        + (∑ r : Fin 16, (∑ i : Fin 4096, x (ix3 b s i) * A (ix2 r i)) * B (ix2 o r)) * Ideal.ofBits .f32 0x40000000#32 := by
  rw [val_main_v9_apply, val_main_v4_apply, val_main_v8_apply, val_main_v6_apply, val_main_v7_apply, val_main_cst_apply]
  simp only [val_main_v5_apply, val_main_v3_apply, val_main_v0_apply, val_main_v2_apply, val_main_v1_apply,
    lhs_base, rhs_base, lhs_down, rhs_down, lhs_up, rhs_up, scale_idx]
  rfl

end Cert.RefRead

end
-- ==== Proof.Consts.lean ====
/-
  The two float words the proof reads as extended reals: the word of `2.0` is the real number 2, and the word of plus
  infinity is the top element.
-/
import Idealize.ShloMosaic.PureOps.Ideal

noncomputable section

namespace Cert.Consts

open Idealize.ShloMosaic

/-- `2.0`, the scaling of the low-rank path, denotes the real `2`. -/
theorem two_word : Ideal.ofBits .f32 0x40000000#32 = ((2 : ℝ) : EReal) := by
  simp [Ideal.ofBits, Ideal.ieee, -EReal.coe_mul]; norm_num

/-- The word the precondition compares against denotes plus infinity. -/
theorem inf_word : Ideal.ofBits .f32 0x7F800000#32 = ⊤ := by
  simp [Ideal.ofBits, Ideal.ieee]

end Cert.Consts

end
-- ==== Proof.Finite.lean ====
/-
  The precondition, read back: every entry of the four float arguments is a real number.

  The precondition states, for each float argument, that every entry's absolute value is below the word of plus
  infinity, all of these conjoined into one bit. That bit being one gives each comparison at each index; an extended
  real whose absolute value `max x (-x)` is below the top element is neither infinity, so it is a real number.
-/
import proofs.«109274_j48576080118365_2_alg».proof.Pre_finite_inputs
import Idealize.ShloMosaic.Lib.ReduceAll
import Idealize.ShloMosaic.Lib.ValueIdx
import Idealize.ShloMosaic.PureOps.Ideal
import proofs.«109274_j48576080118365_2_alg».proof.Proof.Consts

noncomputable section

namespace Cert.Finite

open Cert.Pre_finite_inputs Idealize.ShloMosaic

/-- An extended real whose absolute value compares below the word of plus infinity is a real number. -/
theorem real_of_abs_lt (x : EReal) (h : Ideal.cmp .olt (max x (-x)) (Ideal.ofBits .f32 0x7F800000#32) = 1#1) :
    ∃ r : ℝ, x = (r : EReal) := by
  rw [Cert.Consts.inf_word] at h
  have hb : ∀ b : Bool, BitVec.ofBool b = 1#1 → b = true := by decide
  have h' : max x (-x) < ⊤ := of_decide_eq_true (hb _ h)
  induction x using EReal.rec with
  | bot => simp at h'
  | coe r => exact ⟨r, rfl⟩
  | top => simp at h'

instance : Subsingleton S_.Idx := ⟨fun a b => funext fun d => d.elim0⟩

variable [Facts]

/-- The precondition's bit being one makes every entry of the activations, the scale and the two low-rank factors real. -/
theorem real_entries (x : FVec Ideal S4x2048x4096 .f32) (w : IVec S4096x4096 32) (sc : FVec Ideal S1 .f32)
    (A : FVec Ideal S16x4096 .f32) (B : FVec Ideal S4096x16 .f32)
    (h : fn (F := Ideal) x w sc A B = fun _ => 1#1) :
    (∀ i, ∃ r : ℝ, x i = (r : EReal)) ∧ (∀ i, ∃ r : ℝ, sc i = (r : EReal))
      ∧ (∀ i, ∃ r : ℝ, A i = (r : EReal)) ∧ (∀ i, ∃ r : ℝ, B i = (r : EReal)) := by
  have h0 := congrFun h ValueIdx.ix0
  dsimp only [fn, fn_part1] at h0
  obtain ⟨h123, hB⟩ := IntOp.andi_eq_one.mp h0
  obtain ⟨h12, hA⟩ := IntOp.andi_eq_one.mp h123
  obtain ⟨hX, hS⟩ := IntOp.andi_eq_one.mp h12
  exact ⟨fun i => real_of_abs_lt _ (Host.reduce_andi_all _ _ _ _ _ hX i),
    fun i => real_of_abs_lt _ (Host.reduce_andi_all _ _ _ _ _ hS i),
    fun i => real_of_abs_lt _ (Host.reduce_andi_all _ _ _ _ _ hA i),
    fun i => real_of_abs_lt _ (Host.reduce_andi_all _ _ _ _ _ hB i)⟩

end Cert.Finite

end
-- ==== Proof.LibLoraLaw.lean ====
/-
  The law that joins a fused low-rank update to the split one, over the extended reals.

  A row `x` contracted with an effective weight `w i * s + two * Σ_r B r * A r i` (a scaled integer weight plus
  `two` times a rank-`R` product) equals the row contracted with the scaled weight alone, plus the row pushed
  through the two thin factors one after the other and scaled by `two` at the end:

      Σ_i x i * (w i * s + two * Σ_r B r * A r i)  =  Σ_i x i * (w i * s) + (Σ_r (Σ_i x i * A r i) * B r) * two.

  Over the reals this is distributivity and an exchange of the two summations. Over the extended reals
  distributivity fails at the infinities, so every entry is assumed to be a real number; then the coercion of the
  reals commutes with products and finite sums and the identity is the image of the real one.
-/
import Mathlib.Data.EReal.Basic
import Mathlib.Algebra.BigOperators.Ring.Finset
import Mathlib.Algebra.BigOperators.Group.Finset.Sigma
import Mathlib.Tactic.Ring

noncomputable section

namespace Cert.LibLoraLaw

open Finset

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The fused and the split contraction agree over the reals. -/
theorem fused_eq_split_real {I R : Type*} [Fintype I] [Fintype R] (x w : I → ℝ) (s two : ℝ) (A : R → I → ℝ) (B : R → ℝ) :
    ∑ i, x i * (w i * s + two * ∑ r, B r * A r i)
      = ∑ i, x i * (w i * s) + (∑ r, (∑ i, x i * A r i) * B r) * two := by
  have h1 : ∑ i, x i * (w i * s + two * ∑ r, B r * A r i)
      = ∑ i, x i * (w i * s) + ∑ i, ∑ r, x i * A r i * B r * two := by
    rw [← Finset.sum_add_distrib]
    refine Finset.sum_congr rfl fun i _ => ?_
    rw [mul_add, Finset.mul_sum, Finset.mul_sum]
    congr 1
    refine Finset.sum_congr rfl fun r _ => ?_
    ring
  have h2 : (∑ r, (∑ i, x i * A r i) * B r) * two = ∑ r, ∑ i, x i * A r i * B r * two := by
    rw [Finset.sum_mul]
    refine Finset.sum_congr rfl fun r _ => ?_
    rw [Finset.sum_mul, Finset.sum_mul]
  rw [h1, h2, Finset.sum_comm]

/-- The same over the extended reals, for entries that are all real numbers. -/
theorem fused_eq_split {I R : Type*} [Fintype I] [Fintype R] (x w : I → EReal) (s two : EReal) (A : R → I → EReal)
    (B : R → EReal) (hx : ∀ i, ∃ r : ℝ, x i = (r : EReal)) (hw : ∀ i, ∃ r : ℝ, w i = (r : EReal))
    (hs : ∃ r : ℝ, s = (r : EReal)) (htwo : ∃ r : ℝ, two = (r : EReal))
    (hA : ∀ r i, ∃ v : ℝ, A r i = (v : EReal)) (hB : ∀ r, ∃ v : ℝ, B r = (v : EReal)) :
    ∑ i, x i * (w i * s + two * ∑ r, B r * A r i)
      = ∑ i, x i * (w i * s) + (∑ r, (∑ i, x i * A r i) * B r) * two := by
  choose X hX using hx
  choose W hW using hw
  obtain ⟨S, rfl⟩ := hs
  obtain ⟨T, rfl⟩ := htwo
  choose A' hA' using hA
  choose B' hB' using hB
  have ex : x = fun i => ((X i : ℝ) : EReal) := funext hX
  have ew : w = fun i => ((W i : ℝ) : EReal) := funext hW
  have eA : A = fun r i => ((A' r i : ℝ) : EReal) := funext fun r => funext fun i => hA' r i
  have eB : B = fun r => ((B' r : ℝ) : EReal) := funext hB'
  subst ex ew eA eB
  simp only [← EReal.coe_mul, ← coe_sum, ← EReal.coe_add]
  exact congrArg _ (fused_eq_split_real X W S T A' B')

end Cert.LibLoraLaw

end
-- ==== Proof.Bridge.lean ====
/-
  The kernel's result is the reference's, entry by entry, when the float inputs are finite.

  At batch `b`, row `s`, output feature `o` the kernel's result is row `b · 2048 + s` of the flattened activations
  contracted with row `o` of the effective weight `w * scale + 2 * (B · A)`; the reference's is the base contraction
  plus the doubled low-rank path. The two are joined by distributivity and an exchange of two finite sums, which hold
  on the extended reals because every entry involved is a real number: the float inputs by the precondition, the
  integer weight because it is converted exactly, the constant because its word denotes `2`.
-/
import proofs.«109274_j48576080118365_2_alg».proof.Proof.Result
import proofs.«109274_j48576080118365_2_alg».proof.Proof.RefRead
import proofs.«109274_j48576080118365_2_alg».proof.Proof.Finite
import proofs.«109274_j48576080118365_2_alg».proof.Proof.Consts
import proofs.«109274_j48576080118365_2_alg».proof.Proof.LibLoraLaw
import proofs.«109274_j48576080118365_2_alg».proof.Proof.LibMergeForms
import proofs.«109274_j48576080118365_2_alg».proof.Proof.Gen.Pre_finite_inputs

noncomputable section

open Idealize.ShloMosaic Idealize.ShloMosaic.TcCoe Idealize.SL.Sem

namespace Cert.Bridge

open Cert.KernelIdeal Cert.KernelIdeal.Gen Idealize.ShloMosaic.ValueIdx Cert.KernelIdeal.HostSide Cert.KernelIdeal.Accum
  Cert.KernelIdeal.Result

variable (m : (ℓ : Loc nD τ sig) → Buf (Elt Ideal) ℓ)

/-- The kernel's result array equals the reference's term of the same arguments. -/
theorem kernel_eq_ref (c : Dev nD)
    (hpre : Cert.Pre_finite_inputs.fn (F := Ideal) (argX m c) (argW m c) (argS m c) (argA m c) (argB m c) = fun _ => 1#1) :
    shapeCast S4x2048x4096 (flatOut m c) shapeCasts_S8192x4096_S4x2048x4096
      = Cert.ReferenceIdeal.Read.val_main_v9 (F := Ideal) (argX m c) (argW m c) (argS m c) (argA m c) (argB m c) := by
  obtain ⟨hx, hs, hA, hB⟩ := Cert.Finite.real_entries _ _ _ _ _ hpre
  funext j
  obtain ⟨b, s, o, rfl⟩ : ∃ (b : Fin 4) (s : Fin 2048) (o : Fin 4096), j = ix3 b s o := ⟨j 0, j 1, j 2, eq_ix3 j⟩
  have hrow : b.val * 2048 + s.val < 8192 := by have := b.isLt; have := s.isLt; omega
  rw [Cert.RefRead.ref_apply,
    Cert.PointConv.shapeCast_mc_abc_apply (flatOut m c) shapeCasts_S8192x4096_S4x2048x4096 b s o ⟨b.val * 2048 + s.val, hrow⟩ rfl]
  show ∑ i : Fin 4096, flatX m c (ix2 ⟨b.val * 2048 + s.val, hrow⟩ i) * effW m c (ix2 o i) = _
  simp only [x_flat_apply m c b s _ ⟨b.val * 2048 + s.val, hrow⟩ rfl, w_eff_apply]
  exact Cert.LibLoraLaw.fused_eq_split (fun i => argX m c (ix3 b s i)) (fun i => (((argW m c (ix2 o i)).toInt : ℝ) : EReal))
    (argS m c (ix1 0)) (Ideal.ofBits .f32 0x40000000#32) (fun r i => argA m c (ix2 r i)) (fun r => argB m c (ix2 o r))
    (fun i => hx _) (fun i => ⟨_, rfl⟩) (hs _) ⟨2, Cert.Consts.two_word⟩ (fun r i => hA _) (fun r => hB _)

end Cert.Bridge

end
-- ==== Proof.lean ====
/-
  A quantized linear layer with a low-rank update, fused into one blocked matrix product, against its plain form.

  The kernel folds the dequantized integer weight and the doubled rank-16 product `B · A` into one effective weight
  on the host, flattens the activations to 8192 rows, and multiplies the two in a 4 × 4 × 8 grid: each of the sixteen
  2048 × 1024 output tiles is accumulated over eight blocks of 512 positions of the contracted axis in a scratch
  buffer (zeroed at a tile's first point, written back after its last). The reference contracts the activations with
  the dequantized weight and adds the low-rank path `((x · Aᵀ) · Bᵀ) · 2`.

  The frames of the two kernels are the generated ones; the reference's frame is its generated run with the result
  dropped; the idealization rewrote nothing. For the equivalence over the extended reals: the accumulator after a
  point is the partial sum of the contraction over the blocks visited so far (an induction over the points of the
  grid), so each tile ends at the sum over the whole axis and the result array, its tiles covering it, is the product
  of the flattened activations with the transposed effective weight; entry by entry this equals the reference by
  distributivity and an exchange of finite sums, valid because the precondition makes every float entry a real
  number, the integer weight converts exactly and the constant's word denotes 2.
-/
import proofs.«109274_j48576080118365_2_alg».proof.Defs
import proofs.«109274_j48576080118365_2_alg».proof.Proof.Gen.Kernel
import proofs.«109274_j48576080118365_2_alg».proof.Proof.Gen.Kernel.Skeleton
import proofs.«109274_j48576080118365_2_alg».proof.Proof.Gen.Kernel.Launch
import proofs.«109274_j48576080118365_2_alg».proof.Proof.Gen.Kernel.Points
import proofs.«109274_j48576080118365_2_alg».proof.Proof.Gen.Kernel.Frame
import proofs.«109274_j48576080118365_2_alg».proof.Proof.Gen.KernelIdeal
import proofs.«109274_j48576080118365_2_alg».proof.Proof.Gen.KernelIdeal.Skeleton
import proofs.«109274_j48576080118365_2_alg».proof.Proof.Gen.KernelIdeal.Launch
import proofs.«109274_j48576080118365_2_alg».proof.Proof.Gen.KernelIdeal.Points
import proofs.«109274_j48576080118365_2_alg».proof.Proof.Gen.KernelIdeal.Frame
import proofs.«109274_j48576080118365_2_alg».proof.Proof.Gen.ReferenceIdeal
import proofs.«109274_j48576080118365_2_alg».proof.Proof.Gen.ReferenceIdeal.Run
import proofs.«109274_j48576080118365_2_alg».proof.Proof.Gen.ReferenceIdeal.Read
import proofs.«109274_j48576080118365_2_alg».proof.Proof.Gen.Pre_finite_inputs
import proofs.«109274_j48576080118365_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section
open Cert.KernelIdeal Cert.KernelIdeal.Gen

/-- The idealized kernel's run, read: the result array is the product of the flattened activations with the transposed
    effective weight, its row axis split into batch and sequence; the arguments are unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0)
        = shapeCast S4x2048x4096 (Cert.KernelIdeal.Result.flatOut m c) Facts₀.shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (Cert.KernelIdeal.Result.result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end

/-- From memories that agree on the arguments the two idealized programs end with equal results. -/
theorem algebraic : Cert.algebraic_KernelIdeal_ReferenceIdeal := by
  intro m ρ m' ρ' hpre hagree
  refine ⟨fun c => shapeCast Cert.KernelIdeal.S4x2048x4096 (Cert.KernelIdeal.Result.flatOut m c)
    Cert.KernelIdeal.Facts₀.shapeCasts_S8192x4096_S4x2048x4096, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.Bridge.kernel_eq_ref m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
